-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x2048x2048 .f32) (main_arg1 : FVec F S8192x2048 .f32) (main_arg2 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S8192x8192 : Shape := ⟨2, ![8192, 8192]⟩
abbrev S512x2048 : Shape := ⟨2, ![512, 2048]⟩
abbrev S2048x2048 : Shape := ⟨2, ![2048, 2048]⟩
abbrev S1x2048 : Shape := ⟨2, ![1, 2048]⟩
abbrev S4x2048x8192 : Shape := ⟨3, ![4, 2048, 8192]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .bf16⟩
  | .hbm, ⟨5, _⟩ => ⟨S2048x8192, .f32⟩
  | .hbm, ⟨6, _⟩ => ⟨S2048x8192, .bf16⟩
  | .hbm, ⟨7, _⟩ => ⟨S1x8192, .f32⟩
  | .hbm, ⟨8, _⟩ => ⟨S8192x8192, .f32⟩
  | .hbm, ⟨9, _⟩ => ⟨S4x2048x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x2048_S8192x2048 : S4x2048x2048.ShapeCasts S8192x2048
  bitsLt_bf16_f32 : FTy.bits .bf16 < FTy.bits .f32
  transposes_S8192x2048_S2048x8192_1_0 : S8192x2048.Transposes [1, 0] S2048x8192
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x8192_S4x2048x8192 : S8192x8192.ShapeCasts S4x2048x8192
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .f32 = 32 ∨ (Rect.block (s := S8192x8192) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S4x2048x8192 : Shape := ⟨3, ![4, 2048, 8192]⟩
abbrev S_ : Shape := ⟨0, ![]⟩
abbrev S1x1x8192 : Shape := ⟨3, ![1, 1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S4x2048x8192, .f32⟩
  | .hbm, ⟨4, _⟩ => ⟨S_, .f32⟩
  | .hbm, ⟨5, _⟩ => ⟨S4x2048x8192, .f32⟩
  | .hbm, ⟨6, _⟩ => ⟨S4x2048x8192, .f32⟩
  | .hbm, ⟨7, _⟩ => ⟨S1x1x8192, .f32⟩
  | .hbm, ⟨8, _⟩ => ⟨S4x2048x8192, .f32⟩
  | .hbm, ⟨9, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Spec.lean ====
/-
  The one function both programs compute, index by index, on the extended reals.

  A quantised linear layer: the activations `x` form a stack of 4 matrices of 2048 rows and 2048 columns, the
  weights `w` have one row of 2048 entries per output feature (8192 of them), and `b` has one entry per output
  feature. Entry (g, s, o) of the result is the inner product of row (g, s) of `x` with row `o` of `w`, times the
  dequantisation scale, plus `b o`:

      qlinear x w b (g, s, o) = (∑ k, x (g, s, k) · w (o, k)) · scale + b o.

  The kernel works on the stack flattened to ONE matrix of 8192 = 4 · 2048 rows, on the weights transposed, and on
  the bias as a one-row matrix; `affine` is the same expression over those three matrices, and `affine_flat` says
  that reading `affine` at row g · 2048 + s is reading `qlinear` at (g, s, ·) once the three matrices are those
  re-arrangements of `x`, `w` and `b`. No law of arithmetic is used: the two sides are the same sum of the same
  products, so nothing here asks the inputs to be finite.
-/
import Idealize.ShloMosaic.PureOps.Ideal
import Idealize.ShloMosaic.Lib.ValueIdx

noncomputable section

namespace Cert.QLinear

open Idealize.ShloMosaic Idealize.ShloMosaic.ValueIdx

/-- The dequantisation scale: the value of the binary32 word `0x3C000000` (2⁻⁷). Both programs carry this same
    word, so its value is never computed. -/
abbrev scale : EReal := Ideal.ofBits .f32 0x3C000000#32

/-- Scaled matrix product plus a row of biases, on an 8192 × 2048 matrix `X`, a 2048 × 8192 matrix `W` and a
    1 × 8192 matrix `B`: entry (r, o) is (∑ k, X (r, k) · W (k, o)) · scale + B (0, o). -/
def affine (X : (⟨2, ![8192, 2048]⟩ : Shape).Idx → EReal) (W : (⟨2, ![2048, 8192]⟩ : Shape).Idx → EReal)
    (B : (⟨2, ![1, 8192]⟩ : Shape).Idx → EReal) : (⟨2, ![8192, 8192]⟩ : Shape).Idx → EReal :=
  fun i => (∑ k : Fin 2048, X (ix2 (i 0) k) * W (ix2 k (i 1))) * scale + B (ix2 (0 : Fin 1) (i 1))

/-- The layer on the arrays as given: entry (g, s, o) is (∑ k, x (g, s, k) · w (o, k)) · scale + b o. -/
def qlinear (x : (⟨3, ![4, 2048, 2048]⟩ : Shape).Idx → EReal) (w : (⟨2, ![8192, 2048]⟩ : Shape).Idx → EReal)
    (b : (⟨1, ![8192]⟩ : Shape).Idx → EReal) : (⟨3, ![4, 2048, 8192]⟩ : Shape).Idx → EReal :=
  fun i => (∑ k : Fin 2048, x (ix3 (i 0) (i 1) k) * w (ix2 (i 2) k)) * scale + b (ix1 (i 2))

/-- `affine` at explicit coordinates. -/
theorem affine_apply (X : (⟨2, ![8192, 2048]⟩ : Shape).Idx → EReal) (W : (⟨2, ![2048, 8192]⟩ : Shape).Idx → EReal)
    (B : (⟨2, ![1, 8192]⟩ : Shape).Idx → EReal) (r : Fin 8192) (o : Fin 8192) :
    affine X W B (ix2 r o) = (∑ k : Fin 2048, X (ix2 r k) * W (ix2 k o)) * scale + B (ix2 (0 : Fin 1) o) := rfl

/-- When `X` is the stack `x` with its first two axes merged (row g · 2048 + s is row (g, s)), `W` is `w`
    transposed and `B` is `b` as one row, `affine X W B` at row g · 2048 + s is `qlinear x w b` at (g, s, ·). -/
theorem affine_flat (x : (⟨3, ![4, 2048, 2048]⟩ : Shape).Idx → EReal) (w : (⟨2, ![8192, 2048]⟩ : Shape).Idx → EReal)
    (b : (⟨1, ![8192]⟩ : Shape).Idx → EReal)
    (X : (⟨2, ![8192, 2048]⟩ : Shape).Idx → EReal) (W : (⟨2, ![2048, 8192]⟩ : Shape).Idx → EReal)
    (B : (⟨2, ![1, 8192]⟩ : Shape).Idx → EReal)
    (hX : ∀ (g : Fin 4) (s : Fin 2048) (r : Fin 8192) (k : Fin 2048), r.val = g.val * 2048 + s.val →
      X (ix2 r k) = x (ix3 g s k))
    (hW : ∀ (k : Fin 2048) (o : Fin 8192), W (ix2 k o) = w (ix2 o k))
    (hB : ∀ o : Fin 8192, B (ix2 (0 : Fin 1) o) = b (ix1 o))
    (g : Fin 4) (s : Fin 2048) (o : Fin 8192) (r : Fin 8192) (hr : r.val = g.val * 2048 + s.val) :
    affine X W B (ix2 r o) = qlinear x w b (ix3 g s o) := by
  rw [affine_apply]
  show _ = (∑ k : Fin 2048, x (ix3 g s k) * w (ix2 o k)) * scale + b (ix1 o)
  rw [hB o]
  congr 2
  exact Finset.sum_congr rfl fun k _ => by rw [hX g s r k hr, hW k o]

end Cert.QLinear

end
-- ==== Proof.LibDot.lean ====
/-
  A matrix product of an M×K by a K×N matrix, contracted over the shared axis, read at an entry as a sum over
  Fin K — for any dimension record with the plain product's dimension numbers — together with the lane sum and
  the few keepdims layout moves the kernel bodies and the host code use, each read at explicit coordinates.
-/
import Idealize.ShloMosaic.PureOps.Ideal.Laws
import Idealize.ShloMosaic.Lib.ValueIdx
import Idealize.ShloMosaic.Lib.Pipeline.Value

namespace Cert.LibDot

open Idealize.ShloMosaic Idealize.ShloMosaic.ValueIdx
open scoped BigOperators

variable {M K N : ℕ}

/-- For the plain dimension numbers (contract the left's axis 1 with the right's axis 0, no batch axes) the
    contraction's sum is the sum over the shared extent of left(p, k) · right(k, q). -/
theorem sum_contr_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  set d : DotDims ⟨2, ![M, K]⟩ ⟨2, ![K, N]⟩ ⟨2, ![M, N]⟩ := ⟨[1], [0], [0], [1], [], [], wf⟩ with hd
  have hrk : d.contr.rank = 1 := by rw [d.rank_contr]; rfl
  have hsz : d.contr.size ⟨0, by omega⟩ = K := by
    rw [d.size_contr 0 Nat.one_pos]; rfl
  rw [← Equiv.sum_comp (contrEquiv1 d K hrk hsz).symm]
  refine Finset.sum_congr rfl fun k _ => ?_
  have e1 : d.lhsIdx (ix2 p q) ((contrEquiv1 d K hrk hsz).symm k) = ix2 p k := by
    funext a
    match a with
    | ⟨0, _⟩ =>
      apply Fin.ext
      unfold DotDims.lhsIdx
      rfl
    | ⟨1, _⟩ =>
      apply Fin.ext
      exact (d.lhsIdx_val_of_single (cl := 1) rfl _ _).trans (contrEquiv1_symm_val d K hrk hsz k)
  have e2 : d.rhsIdx (ix2 p q) ((contrEquiv1 d K hrk hsz).symm k) = ix2 k q := by
    funext a
    match a with
    | ⟨0, _⟩ =>
      apply Fin.ext
      exact (d.rhsIdx_val_of_single (cr := 0) rfl _ _).trans (contrEquiv1_symm_val d K hrk hsz k)
    | ⟨1, _⟩ =>
      apply Fin.ext
      unfold DotDims.rhsIdx
      rfl
  rw [e1, e2]

/-- A kernel's matrix product into a zero accumulator, with the plain dimension numbers, at entry (p, q). -/
theorem matmul_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr_plain d hlc hrc hln hrn hlb hrb l r p q)

/-- The host's matrix product with the plain dimension numbers at entry (p, q). -/
theorem dotGeneral_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec _ l r (ix2 p q)).trans (sum_contr_plain d hlc hrc hln hrn hlb hrb l r p q)

end Cert.LibDot
-- ==== Proof.Body.lean ====
/-
  What the kernel body computes from the three blocks it loads, entry by entry.

  At one grid point the body holds a block `a` of 512 rows of the flattened activations (all 2048 columns), a block
  `wt` of 2048 columns of the transposed weights (all 2048 rows) and the matching 2048 entries `bias` of the bias row.
  It forms the 512 × 2048 product of `a` and `wt` from a zero accumulator, multiplies every entry by the scale and adds
  the bias row to every row. So entry (p, q) of what it stores is

      (∑ k, a (p, k) · wt (k, q)) · scale + bias (0, q).

  The casts of a block to its own shape are the identity, the product into a zero accumulator is the plain sum over the
  contracted axis, the scalar's splat reads the scalar everywhere and the one-row broadcast reads the row's entry in
  the same column.
-/
import proofs.«128751_j12128987644267_2_alg».proof.Proof.Gen.KernelIdeal.Skeleton
import proofs.«128751_j12128987644267_2_alg».proof.Proof.Spec
import proofs.«128751_j12128987644267_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- Entry (p, q) of the body's stored block: the inner product of row p of the activation block with column q of
    the weight block, scaled, plus entry q of the bias row. -/
theorem payload_apply (a : FVec Ideal S512x2048 .bf16) (wt : FVec Ideal S2048x2048 .bf16) (bias : FVec Ideal S1x2048 .f32)
    (p : Fin 512) (q : Fin 2048) :
    k0_pay1 (F := Ideal) a wt bias (ix2 p q)
      = (∑ k : Fin 2048, a (ix2 p k) * wt (ix2 k q)) * Cert.QLinear.scale + bias (ix2 (0 : Fin 1) q) := by
  unfold k0_pay1
  show (matmul dot_S512x2048_S2048x2048_S512x2048_1_0_0_1_n_n none (shapeCast S512x2048 a _) (shapeCast S2048x2048 wt _)
      (constant S512x2048 .f32 0x00000000#32) (ix2 p q)) * Cert.QLinear.scale
      + broadcastTo S512x2048 (shapeCast S1x2048 bias _) _ (ix2 p q) = _
  refine congrArg₂ (· + ·) (congrArg (· * Cert.QLinear.scale) ?_) ?_
  · rw [shapeCast_self, shapeCast_self]
    exact Cert.LibDot.matmul_plain dot_S512x2048_S2048x2048_S512x2048_1_0_0_1_n_n rfl rfl rfl rfl rfl rfl none a wt p q
  · rw [shapeCast_self]
    exact broadcastTo_1b_ab_apply bias _ p q

/-- The same for a tile of the whole product. Let `A`, `Wt`, `B` be the three full matrices and let the loaded blocks be
    the parts of them that tile (I, J) of the product needs: `a` rows I · 512 … I · 512 + 511 of `A`, `wt` columns
    J · 2048 … J · 2048 + 2047 of `Wt`, `bias` the same columns of `B`. Then entry `y` of the stored block is entry
    (I · 512 + y₀, J · 2048 + y₁) of `affine A Wt B`. -/
theorem payload_tile (A : (⟨2, ![8192, 2048]⟩ : Shape).Idx → EReal) (Wt : (⟨2, ![2048, 8192]⟩ : Shape).Idx → EReal)
    (B : (⟨2, ![1, 8192]⟩ : Shape).Idx → EReal)
    (a : FVec Ideal S512x2048 .bf16) (wt : FVec Ideal S2048x2048 .bf16) (bias : FVec Ideal S1x2048 .f32)
    (y : (⟨2, ![512, 2048]⟩ : Shape).Idx) (i : (⟨2, ![8192, 8192]⟩ : Shape).Idx) (I J : ℕ)
    (hi0 : (i 0).val = I * 512 + (y 0).val) (hi1 : (i 1).val = J * 2048 + (y 1).val)
    (ha : ∀ (u : (⟨2, ![512, 2048]⟩ : Shape).Idx) (r : (⟨2, ![8192, 2048]⟩ : Shape).Idx),
      (r 0).val = I * 512 + (u 0).val → (r 1).val = (u 1).val → a u = A r)
    (hw : ∀ (u : (⟨2, ![2048, 2048]⟩ : Shape).Idx) (r : (⟨2, ![2048, 8192]⟩ : Shape).Idx),
      (r 0).val = (u 0).val → (r 1).val = J * 2048 + (u 1).val → wt u = Wt r)
    (hb : ∀ (u : (⟨2, ![1, 2048]⟩ : Shape).Idx) (r : (⟨2, ![1, 8192]⟩ : Shape).Idx),
      (r 1).val = J * 2048 + (u 1).val → bias u = B r) :
    k0_pay1 (F := Ideal) a wt bias y = Cert.QLinear.affine A Wt B i := by
  obtain ⟨p, q, rfl⟩ : ∃ (p : Fin 512) (q : Fin 2048), y = ix2 p q := ⟨y 0, y 1, eq_ix2 y⟩
  obtain ⟨r, o, rfl⟩ : ∃ (r : Fin 8192) (o : Fin 8192), i = ix2 r o := ⟨i 0, i 1, eq_ix2 i⟩
  have hr : r.val = I * 512 + p.val := hi0
  have ho : o.val = J * 2048 + q.val := hi1
  rw [payload_apply, Cert.QLinear.affine_apply, hb (ix2 (0 : Fin 1) q) (ix2 (0 : Fin 1) o) ho]
  congr 2
  exact Finset.sum_congr rfl fun k _ => by
    rw [ha (ix2 p k) (ix2 r k) hr rfl, hw (ix2 k q) (ix2 k o) rfl ho]

end Cert.KernelIdeal.Body

end
-- ==== Proof.Tiles.lean ====
/-
  From tiles to the whole product matrix.

  The launch runs the body at 4 · 16 points. Point (J, I) loads rows I · 512 … of the flattened activations, columns
  J · 2048 … of the transposed weights and of the bias row, and writes back tile (I, J) — 512 rows by 2048 columns —
  of the 8192 × 8192 output. Every load and the store go through the whole staging buffer, so what a point writes back is
  the body's result of the three blocks, and by the body's entry formula that is tile (I, J) of ONE matrix,
  `affine` of the three arrays the launch finds. The 16 · 4 tiles cover the output (entry (r, o) lies in tile
  (r / 512, o / 2048)), so after the launch the output array IS that matrix.
-/
import proofs.«128751_j12128987644267_2_alg».proof.Proof.Gen.KernelIdeal.Frame
import proofs.«128751_j12128987644267_2_alg».proof.Proof.Body

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The body's rectangles start at the origin of their buffers. -/
theorem origin : (![0, 0] : Fin 2 → Nat) = fun _ => 0 := funext fun a => by fin_cases a <;> rfl

/-- The product matrix of the three arrays as the launch finds them on core `c`. -/
abbrev product (c : Dev nD) : (⟨2, ![8192, 8192]⟩ : Shape).Idx → EReal :=
  Cert.QLinear.affine (V m c main_v1) (V m c main_v3) (V m c main_v4)

/-- Which blocks a point uses, decided over the 64 points: the activations' row block is the output tile's row index,
    the weights' and the bias' column block is the output tile's column index, the other block indices are 0; the
    output tile's indices stay below 16 and 4. -/
theorem block_indices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 · 4 tiles is some point's. -/
theorem tile_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- What point `t` writes back is its tile of the product matrix. -/
theorem tile_written (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero origin]
  simp only [View.ld_unit_zero (S := S512x2048) origin, View.ld_unit_zero (S := S2048x2048) origin,
    View.ld_unit_zero (S := S1x2048) origin]
  obtain ⟨e0, e1, e2, e3, e4, e5, -, -⟩ := block_indices t
  funext j
  show k0_pay1 (iblk m c 0 t) (iblk m c 1 t) (iblk m c 2 t) j = product m c (((cfg0.win 3).blk t).view.emb j)
  refine Cert.KernelIdeal.Body.payload_tile (V m c main_v1) (V m c main_v3) (V m c main_v4)
    (iblk m c 0 t) (iblk m c 1 t) (iblk m c 2 t) j (((cfg0.win 3).blk t).view.emb j)
    (win0_3.index t (0 : Fin 2)) (win0_3.index t (1 : Fin 2)) ?_ ?_ ?_ ?_ ?_
  · show win0_3.index t (0 : Fin 2) * 512 + 1 * (j 0).val = win0_3.index t (0 : Fin 2) * 512 + (j 0).val
    omega
  · show win0_3.index t (1 : Fin 2) * 2048 + 1 * (j 1).val = win0_3.index t (1 : Fin 2) * 2048 + (j 1).val
    omega
  · intro u r h0 h1
    show V m c main_v1 (((cfg0.win 0).blk t).view.emb u) = V m c main_v1 r
    refine congrArg (V m c main_v1) (funext fun a => Fin.ext ?_)
    match a with
    | ⟨0, _⟩ => show win0_0.index t (0 : Fin 2) * 512 + 1 * (u 0).val = (r 0).val; omega
    | ⟨1, _⟩ => show win0_0.index t (1 : Fin 2) * 2048 + 1 * (u 1).val = (r 1).val; omega
  · intro u r h0 h1
    show V m c main_v3 (((cfg0.win 1).blk t).view.emb u) = V m c main_v3 r
    refine congrArg (V m c main_v3) (funext fun a => Fin.ext ?_)
    match a with
    | ⟨0, _⟩ => show win0_1.index t (0 : Fin 2) * 2048 + 1 * (u 0).val = (r 0).val; omega
    | ⟨1, _⟩ => show win0_1.index t (1 : Fin 2) * 2048 + 1 * (u 1).val = (r 1).val; omega
  · intro u r h1
    show V m c main_v4 (((cfg0.win 2).blk t).view.emb u) = V m c main_v4 r
    refine congrArg (V m c main_v4) (funext fun a => Fin.ext ?_)
    have hu : (u 0).val < 1 := (u 0).isLt
    have hr : (r 0).val < 1 := (r 0).isLt
    match a with
    | ⟨0, _⟩ => show win0_2.index t (0 : Fin 2) * 1 + 1 * (u 0).val = (r 0).val; omega
    | ⟨1, _⟩ => show win0_2.index t (1 : Fin 2) * 2048 + 1 * (u 1).val = (r 1).val; omega

/-- An entry of the output lies in point `t`'s tile iff each coordinate is in the tile's range on its axis. -/
theorem mem_tile (t : Fin cfg0.N) (i : (⟨2, ![8192, 8192]⟩ : Shape).Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- The tiles cover the output: entry (r, o) lies in the tile of the point whose block indices are (r / 512, o / 2048). -/
theorem tiles_cover (i : (⟨2, ![8192, 8192]⟩ : Shape).Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := tile_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- After the launch the output array is the product matrix. -/
theorem product_array (c : Dev nD) : (dats m 0 c).arrAt 3 cfg0.N = product m c :=
  (dats m 0 c).arrAt_eq_of_cover 3 (product m c) (fun t _ => tile_written m c t) tiles_cover

end Cert.KernelIdeal.Tiles

end
-- ==== Proof.HostSides.lean ====
/-
  The host operations around the launch, read at an entry.

  Before the launch the program re-arranges its arguments, and none of it changes a value on the extended reals (a
  change of float format is the identity there):
    * the activations [4, 2048, 2048] are reshaped to [8192, 2048] — row g · 2048 + s of the matrix is row (g, s) of
      the stack, because both are laid out row-major — and converted;
    * the weights [8192, 2048] are transposed to [2048, 8192] and converted: entry (k, o) is entry (o, k);
    * the bias [8192] is reshaped to one row [1, 8192]: entry (0, o) is entry o.
  After the launch the 8192 × 8192 output is reshaped to [4, 2048, 8192]: entry (g, s, o) is entry (g · 2048 + s, o).
-/
import proofs.«128751_j12128987644267_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSides

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The activations as the launch finds them: the argument reshaped to a matrix, then converted. -/
theorem acts_array (c : Dev nD) :
    V m c main_v1
      = truncf (F := Ideal) .bf16 (shapeCast S8192x2048 (m ((c : Thread nD τ).loc main_arg0)) shapeCasts_S4x2048x2048_S8192x2048) bitsLt_bf16_f32 := by
  show StableHlo.after hostOps0 (fun b => m (c, b)) (Proc.devRef .tc main_v1) = _
  after_results
  rfl

/-- The weights as the launch finds them: the argument transposed, then converted. -/
theorem weights_array (c : Dev nD) :
    V m c main_v3
      = truncf (F := Ideal) .bf16 (transpose S2048x8192 [1, 0] (m ((c : Thread nD τ).loc main_arg1)) transposes_S8192x2048_S2048x8192_1_0) bitsLt_bf16_f32 := by
  show StableHlo.after hostOps0 (fun b => m (c, b)) (Proc.devRef .tc main_v3) = _
  after_results

/-- The bias as the launch finds it: the argument as one row. -/
theorem bias_array (c : Dev nD) :
    V m c main_v4 = shapeCast S1x8192 (m ((c : Thread nD τ).loc main_arg2)) shapeCasts_S8192_S1x8192 := by
  show StableHlo.after hostOps0 (fun b => m (c, b)) (Proc.devRef .tc main_v4) = _
  after_results
  rfl

/-- Row g · 2048 + s of the activation matrix is row (g, s) of the argument. -/
theorem acts_entry (c : Dev nD) (g : Fin 4) (s : Fin 2048) (r : Fin 8192) (k : Fin 2048) (hr : r.val = g.val * 2048 + s.val) :
    (V m c main_v1 : (⟨2, ![8192, 2048]⟩ : Shape).Idx → EReal) (ix2 r k)
      = (m ((c : Thread nD τ).loc main_arg0) : (⟨3, ![4, 2048, 2048]⟩ : Shape).Idx → EReal) (ix3 g s k) := by
  rw [acts_array]
  show shapeCast S8192x2048 (m ((c : Thread nD τ).loc main_arg0)) shapeCasts_S4x2048x2048_S8192x2048 (ix2 r k) = _
  refine shapeCast_apply _ _ (ix2 r k) (ix3 g s k) ?_
  rw [Shape.rowMajor_val_three, Shape.rowMajor_val_two]
  show (g.val * 2048 + s.val) * 2048 + k.val = r.val * 2048 + k.val
  rw [hr]

/-- Entry (k, o) of the transposed weights is entry (o, k) of the argument. -/
theorem weights_entry (c : Dev nD) (k : Fin 2048) (o : Fin 8192) :
    (V m c main_v3 : (⟨2, ![2048, 8192]⟩ : Shape).Idx → EReal) (ix2 k o)
      = (m ((c : Thread nD τ).loc main_arg1) : (⟨2, ![8192, 2048]⟩ : Shape).Idx → EReal) (ix2 o k) := by
  rw [weights_array]
  show transpose S2048x8192 [1, 0] (m ((c : Thread nD τ).loc main_arg1)) transposes_S8192x2048_S2048x8192_1_0 (ix2 k o) = _
  exact transpose_ix2_apply _ _ k o

/-- Entry (0, o) of the bias row is entry o of the argument. -/
theorem bias_entry (c : Dev nD) (o : Fin 8192) :
    (V m c main_v4 : (⟨2, ![1, 8192]⟩ : Shape).Idx → EReal) (ix2 (0 : Fin 1) o)
      = (m ((c : Thread nD τ).loc main_arg2) : (⟨1, ![8192]⟩ : Shape).Idx → EReal) (ix1 o) := by
  rw [bias_array]
  exact shapeCast_a_1a_apply _ _ (0 : Fin 1) o

/-- The program's result: when the launch leaves the matrix `G` in its output array, the one operation after the
    launch leaves `G` reshaped to [4, 2048, 8192] in the result buffer. -/
theorem result_of_output (c : Dev nD) (G : (⟨2, ![8192, 8192]⟩ : Shape).Idx → EReal) (hG : (dats m 0 c).arrAt 3 cfg0.N = G) :
    Pipeline.afterTail₀ cfgs (dats m) 0 (V0 m) [hostOps1] c main_v6
      = shapeCast S4x2048x8192 G shapeCasts_S8192x8192_S4x2048x8192 := by
  unfold Pipeline.afterTail₀
  show StableHlo.after hostOps1 _ (Proc.devRef .tc main_v6) = _
  after_results
  rw [(Pipeline.withArrays_arr spec0 launch0.win.arr_inj c _ _ 3).trans hG]
  rfl

/-- Entry (g, s, o) of a matrix reshaped to [4, 2048, 8192] is its entry (g · 2048 + s, o). -/
theorem unflatten_entry (G : (⟨2, ![8192, 8192]⟩ : Shape).Idx → EReal) (g : Fin 4) (s : Fin 2048) (o : Fin 8192) (r : Fin 8192)
    (hr : r.val = g.val * 2048 + s.val) :
    shapeCast S4x2048x8192 G shapeCasts_S8192x8192_S4x2048x8192 (ix3 g s o) = G (ix2 r o) := by
  refine shapeCast_apply _ _ (ix3 g s o) (ix2 r o) ?_
  rw [Shape.rowMajor_val_three, Shape.rowMajor_val_two]
  show r.val * 8192 + o.val = (g.val * 2048 + s.val) * 8192 + o.val
  rw [hr]

end Cert.KernelIdeal.HostSides

end
-- ==== Proof.KernelValue.lean ====
/-
  The idealized kernel's result is `qlinear` of its arguments.

  The launch leaves the product matrix `affine X Wᵀ B` in its output array, where X, Wᵀ, B are the flattened
  activations, the transposed weights and the bias row the host prepared. The one host operation after the launch
  reshapes that matrix to [4, 2048, 8192]. Entry (g, s, o) of the result is therefore entry (g · 2048 + s, o) of the
  product, and since row g · 2048 + s of X is row (g, s) of the activations, Wᵀ (k, o) is w (o, k) and B (0, o) is b o,
  that entry is (∑ k, x (g, s, k) · w (o, k)) · scale + b o.
-/
import proofs.«128751_j12128987644267_2_alg».proof.Proof.Tiles
import proofs.«128751_j12128987644267_2_alg».proof.Proof.HostSides

noncomputable section

namespace Cert.KernelIdeal.KernelValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- What the result buffer holds after the program, on core `c`. -/
theorem result_array (c : Dev nD) :
    Pipeline.afterTail₀ cfgs (dats m) 0 (V0 m) [hostOps1] c main_v6
      = Cert.QLinear.qlinear (m ((c : Thread nD τ).loc main_arg0)) (m ((c : Thread nD τ).loc main_arg1))
          (m ((c : Thread nD τ).loc main_arg2)) := by
  rw [HostSides.result_of_output m c (Tiles.product m c) (Tiles.product_array m c)]
  funext i
  obtain ⟨g, s, o, rfl⟩ : ∃ (g : Fin 4) (s : Fin 2048) (o : Fin 8192), i = ix3 g s o := ⟨i 0, i 1, i 2, eq_ix3 i⟩
  have hg : g.val < 4 := g.isLt
  have hs : s.val < 2048 := s.isLt
  refine (HostSides.unflatten_entry (Tiles.product m c) g s o ⟨g.val * 2048 + s.val, by omega⟩ rfl).trans ?_
  exact Cert.QLinear.affine_flat (m ((c : Thread nD τ).loc main_arg0)) (m ((c : Thread nD τ).loc main_arg1))
    (m ((c : Thread nD τ).loc main_arg2)) (V m c main_v1) (V m c main_v3) (V m c main_v4)
    (fun g s r k hr => HostSides.acts_entry m c g s r k hr) (fun k o => HostSides.weights_entry m c k o)
    (fun o => HostSides.bias_entry m c o) g s o ⟨g.val * 2048 + s.val, by omega⟩ rfl

/-- Every weakly fair execution of the idealized kernel terminates, faultless, with the result buffer at `qlinear` of the
    arguments and the arguments unchanged. -/
theorem run : θ_run defs (onTc (τ := τ) (main (F := Ideal))) ⟨m, fun _ => 0, ρ⟩ fun r => ∀ c : Dev nD,
      r.2.mem ((c.tc : Thread nD τ).loc main_v6)
        = Cert.QLinear.qlinear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_array m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference computes `qlinear`.

  Its seven host operations are: the contraction of the activations' last axis with the weights' last axis (entry
  (g, s, o) is ∑ k, x (g, s, k) · w (o, k)), the scale splat to the result's shape, their entrywise product, the bias
  broadcast along the last axis (in two steps, through shape [1, 1, 8192]), and the entrywise sum. Read at an entry
  (g, s, o) one operation at a time, that is (∑ k, x (g, s, k) · w (o, k)) · scale + b o, which is `qlinear` there.
-/
import proofs.«128751_j12128987644267_2_alg».proof.Proof.Gen.ReferenceIdeal.Read
import proofs.«128751_j12128987644267_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as a function of its three argument arrays, is `qlinear` of them. -/
theorem reference_eq (x : (⟨S4x2048x2048, .f32⟩ : BufTy).Contents (Elt Ideal)) (w : (⟨S8192x2048, .f32⟩ : BufTy).Contents (Elt Ideal))
    (b : (⟨S8192, .f32⟩ : BufTy).Contents (Elt Ideal)) :
    val_main_v5 (F := Ideal) x w b = Cert.QLinear.qlinear x w b := by
  funext i
  obtain ⟨g, s, o, rfl⟩ : ∃ (g : Fin 4) (s : Fin 2048) (o : Fin 8192), i = ix3 g s o := ⟨i 0, i 1, i 2, eq_ix3 i⟩
  -- the contraction reads row (g, s) of the activations and row o of the weights
  have hl : ∀ k : Fin 2048, lidx_main_v0 (ix3 g s o) k = ix3 g s k := fun k =>
    funext fun a => Fin.ext (by match a with | ⟨0, _⟩ => rfl | ⟨1, _⟩ => rfl | ⟨2, _⟩ => rfl)
  have hr : ∀ k : Fin 2048, ridx_main_v0 (ix3 g s o) k = ix2 o k := fun k =>
    funext fun a => Fin.ext (by match a with | ⟨0, _⟩ => rfl | ⟨1, _⟩ => rfl)
  -- the two broadcasts read entry o of the bias
  have hb : idx_main_v3 (idx_main_v4 (ix3 g s o)) = ix1 o :=
    funext fun a => Fin.ext (by match a with | ⟨0, _⟩ => rfl)
  rw [val_main_v5_apply, val_main_v2_apply, val_main_v0_apply, val_main_v1_apply, val_main_cst_apply,
    val_main_v4_apply, val_main_v3_apply, hb]
  show (∑ k : Fin 2048, x (lidx_main_v0 (ix3 g s o) k) * w (ridx_main_v0 (ix3 g s o) k)) * Cert.QLinear.scale + b (ix1 o)
    = (∑ k : Fin 2048, x (ix3 g s k) * w (ix2 o k)) * Cert.QLinear.scale + b (ix1 o)
  simp only [hl, hr]

end Cert.ReferenceIdeal.RefValue

end
-- ==== Proof.lean ====
/-
  A quantised linear layer: out (g, s, o) = (∑ k, x (g, s, k) · w (o, k)) · 2⁻⁷ + b o, for activations x of shape
  [4, 2048, 2048], weights w of shape [8192, 2048] (one row per output feature) and a bias b of 8192 entries.

  The kernel flattens the activations to a matrix X of 8192 rows, transposes the weights to Wᵀ, writes the bias as one
  row B, and computes the 8192 × 8192 matrix  X · Wᵀ · scale + B  tile by tile: 16 · 4 tiles of 512 rows and 2048
  columns, each one full-depth block product (all 2048 terms of the inner product at once) from a zero accumulator,
  scaled and shifted by the tile's part of the bias row; the result is that matrix reshaped to [4, 2048, 8192]. The
  reference contracts the last axes of x and w directly, multiplies by the scale and adds the bias along the last
  axis.

  On the extended reals the two are the same function of the arguments, entry by entry: both scales are the same
  binary32 word, a change of float format is the identity, and the flattening, the transposition and the one-row bias
  only rename the entries the inner product ranges over — row g · 2048 + s of X is row (g, s) of x, Wᵀ (k, o) is
  w (o, k), B (0, o) is b o. The inner products are the same sum of the same products in the same order of factors, so
  no law of arithmetic that could fail at an infinite value is involved, and the precondition (finite inputs) is never
  opened.

  The three frames are the generated ones (the reference's is its generated run with the result dropped); the kernel's
  idealization is its own text read on the extended reals, so there is nothing to preserve; the algebraic claim joins the kernel's
  run (Proof/KernelValue.lean) and the reference's run (generated, read in Proof/RefValue.lean) at the common function
  `Cert.QLinear.qlinear` (Proof/Spec.lean).
-/
import proofs.«128751_j12128987644267_2_alg».proof.Defs
import proofs.«128751_j12128987644267_2_alg».proof.Proof.Gen.Kernel
import proofs.«128751_j12128987644267_2_alg».proof.Proof.Gen.Kernel.Skeleton
import proofs.«128751_j12128987644267_2_alg».proof.Proof.Gen.Kernel.Launch
import proofs.«128751_j12128987644267_2_alg».proof.Proof.Gen.Kernel.Points
import proofs.«128751_j12128987644267_2_alg».proof.Proof.Gen.Kernel.Frame
import proofs.«128751_j12128987644267_2_alg».proof.Proof.Gen.KernelIdeal
import proofs.«128751_j12128987644267_2_alg».proof.Proof.Gen.KernelIdeal.Skeleton
import proofs.«128751_j12128987644267_2_alg».proof.Proof.Gen.KernelIdeal.Launch
import proofs.«128751_j12128987644267_2_alg».proof.Proof.Gen.KernelIdeal.Points
import proofs.«128751_j12128987644267_2_alg».proof.Proof.Gen.KernelIdeal.Frame
import proofs.«128751_j12128987644267_2_alg».proof.Proof.Gen.ReferenceIdeal
import proofs.«128751_j12128987644267_2_alg».proof.Proof.Gen.Pre_finite_inputs
import proofs.«128751_j12128987644267_2_alg».proof.Proof.Gen.ReferenceIdeal.Run
import proofs.«128751_j12128987644267_2_alg».proof.Proof.Gen.ReferenceIdeal.Read
import proofs.«128751_j12128987644267_2_alg».proof.Proof.KernelValue
import proofs.«128751_j12128987644267_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faultless, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the three arguments, both programs end with `qlinear` of those arguments in their
    result buffers: the kernel by its run, the reference by its run read one operation at a time. -/
theorem algebraic : Cert.algebraic_KernelIdeal_ReferenceIdeal := by
  intro m ρ m' ρ' _ hagree
  refine ⟨fun c => Cert.QLinear.qlinear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
